-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S756x128 : Shape := ⟨2, ![756, 128]⟩
abbrev S756 : Shape := ⟨1, ![756]⟩
abbrev S756x756 : Shape := ⟨2, ![756, 756]⟩
abbrev S16x756 : Shape := ⟨2, ![16, 756]⟩
abbrev S16 : Shape := ⟨1, ![16]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S756x128 : S_.BroadcastsInDim S756x128 (![] : Fin 0 → Fin S756x128.rank)
  reducesTo_S756x128_S_d0_1 : S756x128.ReducesTo [0, 1] S_
  bcast_S_S756 : S_.BroadcastsInDim S756 (![] : Fin 0 → Fin S756.rank)
  reducesTo_S756_S_d0 : S756.ReducesTo [0] S_
  bcast_S_S756x756 : S_.BroadcastsInDim S756x756 (![] : Fin 0 → Fin S756x756.rank)
  reducesTo_S756x756_S_d0_1 : S756x756.ReducesTo [0, 1] S_
  bcast_S_S16x756 : S_.BroadcastsInDim S16x756 (![] : Fin 0 → Fin S16x756.rank)
  reducesTo_S16x756_S_d0_1 : S16x756.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S756 .f32) (main_arg5 : FVec F S16x756 .f32) (main_arg6 : FVec F S16 .f32) (main_v13 : IVec S_ 1) (main_v16 : IVec S756x756 1) : IVec S_ 1 :=
  let main_c_5 : IVec S_ 1 := constantI S_ 1 1#1
  let main_v17 : IVec S_ 1 := (fun x v => Host.reduce IntOp.andi x v reducesTo_S756x756_S_d0_1 h_S_) main_v16 main_c_5
  let main_v18 : IVec S_ 1 := andi main_v13 main_v17
  let main_v19 : FVec F S756 .f32 := Host.absf main_arg4
  let main_cst_6 : FVec F S_ .f32 := constant S_ .f32 0x7F800000#32
  let main_v20 : FVec F S756 .f32 := broadcastInDim S756 ![] bcast_S_S756 main_cst_6
  let main_v21 : IVec S756 1 := cmpf .olt main_v19 main_v20
  let main_c_7 : IVec S_ 1 := constantI S_ 1 1#1
  let main_v22 : IVec S_ 1 := (fun x v => Host.reduce IntOp.andi x v reducesTo_S756_S_d0 h_S_) main_v21 main_c_7
  let main_v23 : IVec S_ 1 := andi main_v18 main_v22
  let main_v24 : FVec F S16x756 .f32 := Host.absf main_arg5
  let main_cst_8 : FVec F S_ .f32 := constant S_ .f32 0x7F800000#32
  let main_v25 : FVec F S16x756 .f32 := broadcastInDim S16x756 ![] bcast_S_S16x756 main_cst_8
  let main_v26 : IVec S16x756 1 := cmpf .olt main_v24 main_v25
  let main_c_9 : IVec S_ 1 := constantI S_ 1 1#1
  let main_v27 : IVec S_ 1 := (fun x v => Host.reduce IntOp.andi x v reducesTo_S16x756_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S16384x128 .f32) (main_arg1 : FVec F S756x128 .f32) (main_arg2 : FVec F S756 .f32) (main_arg3 : FVec F S756x756 .f32) (main_arg4 : FVec F S756 .f32) (main_arg5 : FVec F S16x756 .f32) (main_arg6 : FVec F S16 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S756x128 .f32 := Host.absf main_arg1
  let main_cst_0 : FVec F S_ .f32 := constant S_ .f32 0x7F800000#32
  let main_v5 : FVec F S756x128 .f32 := broadcastInDim S756x128 ![] bcast_S_S756x128 main_cst_0
  let main_v6 : IVec S756x128 1 := cmpf .olt main_v4 main_v5
  let main_c_1 : IVec S_ 1 := constantI S_ 1 1#1
  let main_v7 : IVec S_ 1 := (fun x v => Host.reduce IntOp.andi x v reducesTo_S756x128_S_d0_1 h_S_) main_v6 main_c_1
  let main_v8 : IVec S_ 1 := andi main_v3 main_v7
  let main_v9 : FVec F S756 .f32 := Host.absf main_arg2
  let main_cst_2 : FVec F S_ .f32 := constant S_ .f32 0x7F800000#32
  let main_v10 : FVec F S756 .f32 := broadcastInDim S756 ![] bcast_S_S756 main_cst_2
  let main_v11 : IVec S756 1 := cmpf .olt main_v9 main_v10
  let main_c_3 : IVec S_ 1 := constantI S_ 1 1#1
  let main_v12 : IVec S_ 1 := (fun x v => Host.reduce IntOp.andi x v reducesTo_S756_S_d0 h_S_) main_v11 main_c_3
  let main_v13 : IVec S_ 1 := andi main_v8 main_v12
  let main_v14 : FVec F S756x756 .f32 := Host.absf main_arg3
  let main_cst_4 : FVec F S_ .f32 := constant S_ .f32 0x7F800000#32
  let main_v15 : FVec F S756x756 .f32 := broadcastInDim S756x756 ![] bcast_S_S756x756 main_cst_4
  let main_v16 : IVec S756x756 1 := cmpf .olt main_v14 main_v15
  fn_part1 (F := F) main_arg4 main_arg5 main_arg6 main_v13 main_v16
-- ==== Kernel.lean ====
abbrev S16384x128 : Shape := ⟨2, ![16384, 128]⟩
abbrev S756x128 : Shape := ⟨2, ![756, 128]⟩
abbrev S756 : Shape := ⟨1, ![756]⟩
abbrev S756x756 : Shape := ⟨2, ![756, 756]⟩
abbrev S16x756 : Shape := ⟨2, ![16, 756]⟩
abbrev S16 : Shape := ⟨1, ![16]⟩
abbrev S1x756 : Shape := ⟨2, ![1, 756]⟩
abbrev S1x16 : Shape := ⟨2, ![1, 16]⟩
abbrev S16384x16 : Shape := ⟨2, ![16384, 16]⟩
abbrev S4096x128 : Shape := ⟨2, ![4096, 128]⟩
abbrev S4096x16 : Shape := ⟨2, ![4096, 16]⟩
abbrev S4096x756 : Shape := ⟨2, ![4096, 756]⟩

abbrev nBuf : Space → Nat
  | .hbm => 11
  | .vmem => 13
  | .smem => 0
  | _ => 0

abbrev bufTy : (tb : Table) → Fin (tcTables nBuf tb) → BufTy
  | .hbm, ⟨0, _⟩ => ⟨S16384x128, .f32⟩
  | .hbm, ⟨1, _⟩ => ⟨S756x128, .f32⟩
  | .hbm, ⟨2, _⟩ => ⟨S756, .f32⟩
  | .hbm, ⟨3, _⟩ => ⟨S756x756, .f32⟩
  | .hbm, ⟨4, _⟩ => ⟨S756, .f32⟩
  | .hbm, ⟨5, _⟩ => ⟨S16x756, .f32⟩
  | .hbm, ⟨6, _⟩ => ⟨S16, .f32⟩
  | .hbm, ⟨7, _⟩ => ⟨S1x756, .f32⟩
  | .hbm, ⟨8, _⟩ => ⟨S1x756, .f32⟩
  | .hbm, ⟨9, _⟩ => ⟨S1x16, .f32⟩
  | .hbm, ⟨10, _⟩ => ⟨S16384x16, .f32⟩
  | .local _ .vmem, ⟨0, _⟩ => ⟨S4096x128, .f32⟩
  | .local _ .vmem, ⟨1, _⟩ => ⟨S4096x128, .f32⟩
  | .local _ .vmem, ⟨2, _⟩ => ⟨S756x128, .f32⟩
  | .local _ .vmem, ⟨3, _⟩ => ⟨S1x756, .f32⟩
  | .local _ .vmem, ⟨4, _⟩ => ⟨S756x756, .f32⟩
  | .local _ .vmem, ⟨5, _⟩ => ⟨S1x756, .f32⟩
  | .local _ .vmem, ⟨6, _⟩ => ⟨S16x756, .f32⟩
  | .local _ .vmem, ⟨7, _⟩ => ⟨S1x16, .f32⟩
  | .local _ .vmem, ⟨8, _⟩ => ⟨S4096x16, .f32⟩
  | .local _ .vmem, ⟨9, _⟩ => ⟨S4096x16, .f32⟩
  | .local _ .vmem, ⟨10, _⟩ => ⟨S756x128, .bf16⟩
  | .local _ .vmem, ⟨11, _⟩ => ⟨S756x756, .bf16⟩
  | .local _ .vmem, ⟨12, _⟩ => ⟨S16x756, .bf16⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S756x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x756 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S756x756 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x756 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x756 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S756_S1x756 : S756.ShapeCasts S1x756
  shapeCasts_S16_S1x16 : S16.ShapeCasts S1x16
  inb_S756x128_S756x128_0_0 : ∀ a, (![0, 0] : Fin 2 → Nat) a + S756x128.size a ≤ S756x128.size a
  h_S756x128 : 0 < S756x128.numel
  bitsLt_bf16_f32 : FTy.bits .bf16 < FTy.bits .f32
  shapeCasts_S756x128_S756x128 : S756x128.ShapeCasts S756x128
  packedbf16_S756x128_S756x128_0_0 : (Rect.unit (s := S756x128) ![0, 0] S756x128.size inb_S756x128_S756x128_0_0).PackedRows (EltTy.packing .bf16)
  inb_S756x756_S756x756_0_0 : ∀ a, (![0, 0] : Fin 2 → Nat) a + S756x756.size a ≤ S756x756.size a
  h_S756x756 : 0 < S756x756.numel
  shapeCasts_S756x756_S756x756 : S756x756.ShapeCasts S756x756
  packedbf16_S756x756_S756x756_0_0 : (Rect.unit (s := S756x756) ![0, 0] S756x756.size inb_S756x756_S756x756_0_0).PackedRows (EltTy.packing .bf16)
  inb_S16x756_S16x756_0_0 : ∀ a, (![0, 0] : Fin 2 → Nat) a + S16x756.size a ≤ S16x756.size a
  h_S16x756 : 0 < S16x756.numel
  shapeCasts_S16x756_S16x756 : S16x756.ShapeCasts S16x756
  packedbf16_S16x756_S16x756_0_0 : (Rect.unit (s := S16x756) ![0, 0] S16x756.size inb_S16x756_S16x756_0_0).PackedRows (EltTy.packing .bf16)
  inb_S4096x128_S4096x128_0_0 : ∀ a, (![0, 0] : Fin 2 → Nat) a + S4096x128.size a ≤ S4096x128.size a
  h_S4096x128 : 0 < S4096x128.numel
  inb_S1x756_S1x756_0_0 : ∀ a, (![0, 0] : Fin 2 → Nat) a + S1x756.size a ≤ S1x756.size a
  h_S1x756 : 0 < S1x756.numel
  shapeCasts_S1x756_S1x756 : S1x756.ShapeCasts S1x756
  broadcasts_S1x756_S4096x756 : S1x756.Broadcasts S4096x756
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S4096x16_S4096x16_0_0 : ∀ a, (![0, 0] : Fin 2 → Nat) a + S4096x16.size a ≤ S4096x16.size a
  h_S4096x16 : 0 < S4096x16.numel
  dot_S4096x128_S756x128_S4096x756_1_1_0_0_n_n_wf : DotDims.WF S4096x128 S756x128 S4096x756 [1] [1] [0] [0] [] []
  dot_S4096x756_S756x756_S4096x756_1_1_0_0_n_n_wf : DotDims.WF S4096x756 S756x756 S4096x756 [1] [1] [0] [0] [] []
  dot_S4096x756_S16x756_S4096x16_1_1_0_0_n_n_wf : DotDims.WF S4096x756 S16x756 S4096x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S16384x128.size a
  hwx0_0 : ∀ i : grid0.Coords, EltTy.bits .f32 = 32 ∨ (Rect.block (s := S16384x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S756x128.size a ≤ S756x128.size a
  hwx0_1 : ∀ i : grid0.Coords, EltTy.bits .f32 = 32 ∨ (Rect.block (s := S756x128) S756x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x756.size a ≤ S1x756.size a
  hwx0_2 : ∀ i : grid0.Coords, EltTy.bits .f32 = 32 ∨ (Rect.block (s := S1x756) S1x756.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S756x756.size a ≤ S756x756.size a
  hwx0_3 : ∀ i : grid0.Coords, EltTy.bits .f32 = 32 ∨ (Rect.block (s := S756x756) S756x756.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x756.size a ≤ S1x756.size a
  hwx0_4 : ∀ i : grid0.Coords, EltTy.bits .f32 = 32 ∨ (Rect.block (s := S1x756) S1x756.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x756.size a ≤ S16x756.size a
  hwx0_5 : ∀ i : grid0.Coords, EltTy.bits .f32 = 32 ∨ (Rect.block (s := S16x756) S16x756.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x16.size a ≤ S16384x16.size a
  hwx0_7 : ∀ i : grid0.Coords, EltTy.bits .f32 = 32 ∨ (Rect.block (s := S16384x16) S4096x16.size (cc0_transform_7 i) (hinb0_7 i)).WholeWords (EltTy.packing .f32)

variable [Facts₀]

def dot_S4096x128_S756x128_S4096x756_1_1_0_0_n_n : DotDims S4096x128 S756x128 S4096x756 where
  lhsContracting := [1]
  rhsContracting := [1]
  lhsNonContracting := [0]
  rhsNonContracting := [0]
  lhsBatch := []
  rhsBatch := []
  wf := dot_S4096x128_S756x128_S4096x756_1_1_0_0_n_n_wf
def dot_S4096x756_S756x756_S4096x756_1_1_0_0_n_n : DotDims S4096x756 S756x756 S4096x756 where
  lhsContracting := [1]
  rhsContracting := [1]
  lhsNonContracting := [0]
  rhsNonContracting := [0]
  lhsBatch := []
  rhsBatch := []
  wf := dot_S4096x756_S756x756_S4096x756_1_1_0_0_n_n_wf
def dot_S4096x756_S16x756_S4096x16_1_1_0_0_n_n : DotDims S4096x756 S16x756 S4096x16 where
  lhsContracting := [1]
  rhsContracting := [1]
  lhsNonContracting := [0]
  rhsNonContracting := [0]
  lhsBatch := []
  rhsBatch := []
  wf := dot_S4096x756_S16x756_S4096x16_1_1_0_0_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S756x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x756.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S756x756.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x756.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x756.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S4096x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x128 : Shape := ⟨2, ![16384, 128]⟩
abbrev S756x128 : Shape := ⟨2, ![756, 128]⟩
abbrev S756 : Shape := ⟨1, ![756]⟩
abbrev S756x756 : Shape := ⟨2, ![756, 756]⟩
abbrev S16x756 : Shape := ⟨2, ![16, 756]⟩
abbrev S16 : Shape := ⟨1, ![16]⟩
abbrev S128x756 : Shape := ⟨2, ![128, 756]⟩
abbrev S16384x756 : Shape := ⟨2, ![16384, 756]⟩
abbrev S1x756 : Shape := ⟨2, ![1, 756]⟩
abbrev S_ : Shape := ⟨0, ![]⟩
abbrev S756x16 : Shape := ⟨2, ![756, 16]⟩
abbrev S16384x16 : Shape := ⟨2, ![16384, 16]⟩
abbrev S1x16 : Shape := ⟨2, ![1, 16]⟩

abbrev nBuf : Space → Nat
  | .hbm => 28
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S756x128, .f32⟩
  | .hbm, ⟨2, _⟩ => ⟨S756, .f32⟩
  | .hbm, ⟨3, _⟩ => ⟨S756x756, .f32⟩
  | .hbm, ⟨4, _⟩ => ⟨S756, .f32⟩
  | .hbm, ⟨5, _⟩ => ⟨S16x756, .f32⟩
  | .hbm, ⟨6, _⟩ => ⟨S16, .f32⟩
  | .hbm, ⟨7, _⟩ => ⟨S128x756, .f32⟩
  | .hbm, ⟨8, _⟩ => ⟨S16384x756, .f32⟩
  | .hbm, ⟨9, _⟩ => ⟨S1x756, .f32⟩
  | .hbm, ⟨10, _⟩ => ⟨S16384x756, .f32⟩
  | .hbm, ⟨11, _⟩ => ⟨S16384x756, .f32⟩
  | .hbm, ⟨12, _⟩ => ⟨S_, .f32⟩
  | .hbm, ⟨13, _⟩ => ⟨S16384x756, .f32⟩
  | .hbm, ⟨14, _⟩ => ⟨S16384x756, .f32⟩
  | .hbm, ⟨15, _⟩ => ⟨S756x756, .f32⟩
  | .hbm, ⟨16, _⟩ => ⟨S16384x756, .f32⟩
  | .hbm, ⟨17, _⟩ => ⟨S1x756, .f32⟩
  | .hbm, ⟨18, _⟩ => ⟨S16384x756, .f32⟩
  | .hbm, ⟨19, _⟩ => ⟨S16384x756, .f32⟩
  | .hbm, ⟨20, _⟩ => ⟨S_, .f32⟩
  | .hbm, ⟨21, _⟩ => ⟨S16384x756, .f32⟩
  | .hbm, ⟨22, _⟩ => ⟨S16384x756, .f32⟩
  | .hbm, ⟨23, _⟩ => ⟨S756x16, .f32⟩
  | .hbm, ⟨24, _⟩ => ⟨S16384x16, .f32⟩
  | .hbm, ⟨25, _⟩ => ⟨S1x16, .f32⟩
  | .hbm, ⟨26, _⟩ => ⟨S16384x16, .f32⟩
  | .hbm, ⟨27, _⟩ => ⟨S16384x16, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  transposes_S756x128_S128x756_1_0 : S756x128.Transposes [1, 0] S128x756
  bcast_S756_S1x756_1 : S756.BroadcastsInDim S1x756 (![1] : Fin 1 → Fin S1x756.rank)
  bcast_S1x756_S16384x756_0_1 : S1x756.BroadcastsInDim S16384x756 (![0, 1] : Fin 2 → Fin S16384x756.rank)
  bcast_S_S16384x756 : S_.BroadcastsInDim S16384x756 (![] : Fin 0 → Fin S16384x756.rank)
  transposes_S756x756_S756x756_1_0 : S756x756.Transposes [1, 0] S756x756
  transposes_S16x756_S756x16_1_0 : S16x756.Transposes [1, 0] S756x16
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  dot_S16384x128_S128x756_S16384x756_1_0_0_1_n_n_wf : DotDims.WF S16384x128 S128x756 S16384x756 [1] [0] [0] [1] [] []
  dot_S16384x756_S756x756_S16384x756_1_0_0_1_n_n_wf : DotDims.WF S16384x756 S756x756 S16384x756 [1] [0] [0] [1] [] []
  dot_S16384x756_S756x16_S16384x16_1_0_0_1_n_n_wf : DotDims.WF S16384x756 S756x16 S16384x16 [1] [0] [0] [1] [] []

variable [Facts₀]

def dot_S16384x128_S128x756_S16384x756_1_0_0_1_n_n : DotDims S16384x128 S128x756 S16384x756 where
  lhsContracting := [1]
  rhsContracting := [0]
  lhsNonContracting := [0]
  rhsNonContracting := [1]
  lhsBatch := []
  rhsBatch := []
  wf := dot_S16384x128_S128x756_S16384x756_1_0_0_1_n_n_wf
def dot_S16384x756_S756x756_S16384x756_1_0_0_1_n_n : DotDims S16384x756 S756x756 S16384x756 where
  lhsContracting := [1]
  rhsContracting := [0]
  lhsNonContracting := [0]
  rhsNonContracting := [1]
  lhsBatch := []
  rhsBatch := []
  wf := dot_S16384x756_S756x756_S16384x756_1_0_0_1_n_n_wf
def dot_S16384x756_S756x16_S16384x16_1_0_0_1_n_n : DotDims S16384x756 S756x16 S16384x16 where
  lhsContracting := [1]
  rhsContracting := [0]
  lhsNonContracting := [0]
  rhsNonContracting := [1]
  lhsBatch := []
  rhsBatch := []
  wf := dot_S16384x756_S756x16_S16384x16_1_0_0_1_n_n_wf

class Facts : Prop extends Facts₀ where

variable [Facts]
-- ==== Proof.Pieces.lean ====
/-
  What one run of the fused three-layer body leaves behind, as values of the blocks it was given.

  The body has two control cases. At the first grid point it first copies the three weight blocks W1, W2, W3 into
  three scratch buffers (changing their float format), then computes the output block from the state block, the two
  hidden biases, the three scratch buffers read back, and the output bias. At every later point it skips the copies
  and computes the same expression from what the scratch buffers already hold. Every load and store covers its
  buffer whole, so a buffer's contents after the body are the payload of the one store into it, and a read-back of a
  scratch after its store is that store's payload.
-/
import proofs.«126241_g39943195853490_cont_8to1_b_464_15_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of every load and store of the body: each touches its buffer whole. -/
theorem hz : (![0, 0] : Fin 2 → Nat) = fun _ => 0 := funext fun a => by fin_cases a <;> rfl

/-- At the first grid point the first weight matrix's scratch ends holding the one store's payload: the f32
    block of W1 changed to bf16. -/
theorem scratch0_A (c : Dev nD) (i : grid0.Coords) (arg1 : Memref sig .tc .vmem S4096x128 .f32) (harg1 : arg1.IsWhole) (arg2 : Memref sig .tc .vmem S756x128 .f32) (harg2 : arg2.IsWhole) (arg3 : Memref sig .tc .vmem S1x756 .f32) (harg3 : arg3.IsWhole) (arg4 : Memref sig .tc .vmem S756x756 .f32) (harg4 : arg4.IsWhole) (arg5 : Memref sig .tc .vmem S1x756 .f32) (harg5 : arg5.IsWhole) (arg6 : Memref sig .tc .vmem S16x756 .f32) (harg6 : arg6.IsWhole) (arg7 : Memref sig .tc .vmem S1x16 .f32) (harg7 : arg7.IsWhole) (arg8 : Memref sig .tc .vmem S4096x16 .f32) (harg8 : arg8.IsWhole) (arg9 : Memref sig .tc .vmem S756x128 .bf16) (harg9 : arg9.IsWhole) (arg10 : Memref sig .tc .vmem S756x756 .bf16) (harg10 : arg10.IsWhole) (arg11 : Memref sig .tc .vmem S16x756 .bf16) (harg11 : arg11.IsWhole) (hc0 : cond0_0 i) (x0 : Vec F S4096x128 .f32) (x1 : Vec F S756x128 .f32) (x2 : Vec F S1x756 .f32) (x3 : Vec F S756x756 .f32) (x4 : Vec F S1x756 .f32) (x5 : Vec F S16x756 .f32) (x6 : Vec F S1x16 .f32) :
    sout0_A_0 c i arg1 harg1 arg2 harg2 arg3 harg3 arg4 harg4 arg5 harg5 arg6 harg6 arg7 harg7 arg8 harg8 arg9 harg9 arg10 harg10 arg11 harg11 hc0 x0 x1 x2 x3 x4 x5 x6 = k0_pay1 x1 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz]
  simp only [View.readAt_eq_ld, harg2.read_unread, View.ld_unit_zero (S := S756x128) hz]

/-- The same for the second weight matrix's scratch: W2's block changed to bf16. -/
theorem scratch1_A (c : Dev nD) (i : grid0.Coords) (arg1 : Memref sig .tc .vmem S4096x128 .f32) (harg1 : arg1.IsWhole) (arg2 : Memref sig .tc .vmem S756x128 .f32) (harg2 : arg2.IsWhole) (arg3 : Memref sig .tc .vmem S1x756 .f32) (harg3 : arg3.IsWhole) (arg4 : Memref sig .tc .vmem S756x756 .f32) (harg4 : arg4.IsWhole) (arg5 : Memref sig .tc .vmem S1x756 .f32) (harg5 : arg5.IsWhole) (arg6 : Memref sig .tc .vmem S16x756 .f32) (harg6 : arg6.IsWhole) (arg7 : Memref sig .tc .vmem S1x16 .f32) (harg7 : arg7.IsWhole) (arg8 : Memref sig .tc .vmem S4096x16 .f32) (harg8 : arg8.IsWhole) (arg9 : Memref sig .tc .vmem S756x128 .bf16) (harg9 : arg9.IsWhole) (arg10 : Memref sig .tc .vmem S756x756 .bf16) (harg10 : arg10.IsWhole) (arg11 : Memref sig .tc .vmem S16x756 .bf16) (harg11 : arg11.IsWhole) (hc0 : cond0_0 i) (x0 : Vec F S4096x128 .f32) (x1 : Vec F S756x128 .f32) (x2 : Vec F S1x756 .f32) (x3 : Vec F S756x756 .f32) (x4 : Vec F S1x756 .f32) (x5 : Vec F S16x756 .f32) (x6 : Vec F S1x16 .f32) :
    sout0_A_1 c i arg1 harg1 arg2 harg2 arg3 harg3 arg4 harg4 arg5 harg5 arg6 harg6 arg7 harg7 arg8 harg8 arg9 harg9 arg10 harg10 arg11 harg11 hc0 x0 x1 x2 x3 x4 x5 x6 = k0_pay2 x3 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz]
  simp only [View.readAt_eq_ld, harg4.read_unread, View.ld_unit_zero (S := S756x756) hz]

/-- The same for the third weight matrix's scratch: W3's block changed to bf16. -/
theorem scratch2_A (c : Dev nD) (i : grid0.Coords) (arg1 : Memref sig .tc .vmem S4096x128 .f32) (harg1 : arg1.IsWhole) (arg2 : Memref sig .tc .vmem S756x128 .f32) (harg2 : arg2.IsWhole) (arg3 : Memref sig .tc .vmem S1x756 .f32) (harg3 : arg3.IsWhole) (arg4 : Memref sig .tc .vmem S756x756 .f32) (harg4 : arg4.IsWhole) (arg5 : Memref sig .tc .vmem S1x756 .f32) (harg5 : arg5.IsWhole) (arg6 : Memref sig .tc .vmem S16x756 .f32) (harg6 : arg6.IsWhole) (arg7 : Memref sig .tc .vmem S1x16 .f32) (harg7 : arg7.IsWhole) (arg8 : Memref sig .tc .vmem S4096x16 .f32) (harg8 : arg8.IsWhole) (arg9 : Memref sig .tc .vmem S756x128 .bf16) (harg9 : arg9.IsWhole) (arg10 : Memref sig .tc .vmem S756x756 .bf16) (harg10 : arg10.IsWhole) (arg11 : Memref sig .tc .vmem S16x756 .bf16) (harg11 : arg11.IsWhole) (hc0 : cond0_0 i) (x0 : Vec F S4096x128 .f32) (x1 : Vec F S756x128 .f32) (x2 : Vec F S1x756 .f32) (x3 : Vec F S756x756 .f32) (x4 : Vec F S1x756 .f32) (x5 : Vec F S16x756 .f32) (x6 : Vec F S1x16 .f32) :
    sout0_A_2 c i arg1 harg1 arg2 harg2 arg3 harg3 arg4 harg4 arg5 harg5 arg6 harg6 arg7 harg7 arg8 harg8 arg9 harg9 arg10 harg10 arg11 harg11 hc0 x0 x1 x2 x3 x4 x5 x6 = k0_pay3 x5 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz]
  simp only [View.readAt_eq_ld, harg6.read_unread, View.ld_unit_zero (S := S16x756) hz]

/-- At the first grid point the output block is the three-layer payload of the point's input blocks, the three
    weight operands being what the same point has just stored in the scratch buffers: each scratch is read back
    whole after one whole store, so the read gives that store's payload. -/
theorem out7_A (c : Dev nD) (i : grid0.Coords) (arg1 : Memref sig .tc .vmem S4096x128 .f32) (harg1 : arg1.IsWhole) (arg2 : Memref sig .tc .vmem S756x128 .f32) (harg2 : arg2.IsWhole) (arg3 : Memref sig .tc .vmem S1x756 .f32) (harg3 : arg3.IsWhole) (arg4 : Memref sig .tc .vmem S756x756 .f32) (harg4 : arg4.IsWhole) (arg5 : Memref sig .tc .vmem S1x756 .f32) (harg5 : arg5.IsWhole) (arg6 : Memref sig .tc .vmem S16x756 .f32) (harg6 : arg6.IsWhole) (arg7 : Memref sig .tc .vmem S1x16 .f32) (harg7 : arg7.IsWhole) (arg8 : Memref sig .tc .vmem S4096x16 .f32) (harg8 : arg8.IsWhole) (arg9 : Memref sig .tc .vmem S756x128 .bf16) (harg9 : arg9.IsWhole) (arg10 : Memref sig .tc .vmem S756x756 .bf16) (harg10 : arg10.IsWhole) (arg11 : Memref sig .tc .vmem S16x756 .bf16) (harg11 : arg11.IsWhole) (hc0 : cond0_0 i) (x0 : Vec F S4096x128 .f32) (x1 : Vec F S756x128 .f32) (x2 : Vec F S1x756 .f32) (x3 : Vec F S756x756 .f32) (x4 : Vec F S1x756 .f32) (x5 : Vec F S16x756 .f32) (x6 : Vec F S1x16 .f32) :
    out0_A_7 c i arg1 harg1 arg2 harg2 arg3 harg3 arg4 harg4 arg5 harg5 arg6 harg6 arg7 harg7 arg8 harg8 arg9 harg9 arg10 harg10 arg11 harg11 hc0 x0 x1 x2 x3 x4 x5 x6 = k0_pay4 x0 x2 x4 (k0_pay1 x1) (k0_pay2 x3) (k0_pay3 x5) x6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz, View.readCov_unit_zero (S := S756x128) _ hz, View.readCov_unit_zero (S := S756x756) _ hz,
    View.readCov_unit_zero (S := S16x756) _ hz]
  simp only [View.readAt_eq_ld, harg1.read_unread, harg2.read_unread, harg3.read_unread, harg4.read_unread,
    harg5.read_unread, harg6.read_unread, harg7.read_unread, View.ld_unit_zero (S := S4096x128) hz,
    View.ld_unit_zero (S := S756x128) hz, View.ld_unit_zero (S := S1x756) hz, View.ld_unit_zero (S := S756x756) hz,
    View.ld_unit_zero (S := S16x756) hz, View.ld_unit_zero (S := S1x16) hz]

/-- At a later grid point nothing is stored in the scratch buffers, and the output block is the same payload over
    what they held when the point began. -/
theorem out7_B (c : Dev nD) (i : grid0.Coords) (arg1 : Memref sig .tc .vmem S4096x128 .f32) (harg1 : arg1.IsWhole) (arg2 : Memref sig .tc .vmem S756x128 .f32) (harg2 : arg2.IsWhole) (arg3 : Memref sig .tc .vmem S1x756 .f32) (harg3 : arg3.IsWhole) (arg4 : Memref sig .tc .vmem S756x756 .f32) (harg4 : arg4.IsWhole) (arg5 : Memref sig .tc .vmem S1x756 .f32) (harg5 : arg5.IsWhole) (arg6 : Memref sig .tc .vmem S16x756 .f32) (harg6 : arg6.IsWhole) (arg7 : Memref sig .tc .vmem S1x16 .f32) (harg7 : arg7.IsWhole) (arg8 : Memref sig .tc .vmem S4096x16 .f32) (harg8 : arg8.IsWhole) (arg9 : Memref sig .tc .vmem S756x128 .bf16) (harg9 : arg9.IsWhole) (arg10 : Memref sig .tc .vmem S756x756 .bf16) (harg10 : arg10.IsWhole) (arg11 : Memref sig .tc .vmem S16x756 .bf16) (harg11 : arg11.IsWhole) (hc0 : ¬cond0_0 i) (x0 : Vec F S4096x128 .f32) (x1 : Vec F S756x128 .f32) (x2 : Vec F S1x756 .f32) (x3 : Vec F S756x756 .f32) (x4 : Vec F S1x756 .f32) (x5 : Vec F S16x756 .f32) (x6 : Vec F S1x16 .f32) (xs0 : Vec F S756x128 .bf16) (xs1 : Vec F S756x756 .bf16) (xs2 : Vec F S16x756 .bf16) :
    out0_B_7 c i arg1 harg1 arg2 harg2 arg3 harg3 arg4 harg4 arg5 harg5 arg6 harg6 arg7 harg7 arg8 harg8 arg9 harg9 arg10 harg10 arg11 harg11 hc0 x0 x1 x2 x3 x4 x5 x6 xs0 xs1 xs2 = k0_pay4 x0 x2 x4 xs0 xs1 xs2 x6 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 x0 x1 x2 x3 x4 x5 x6 xs0 xs1 xs2)]
  unfold kernelRun0_B
  dsimp only
  rw [View.canon_unit_zero hz]
  simp only [View.readAt_eq_ld, harg1.read_unread, harg3.read_unread, harg5.read_unread, harg7.read_unread,
    harg9.read_unread, harg10.read_unread, harg11.read_unread, View.ld_unit_zero (S := S4096x128) hz,
    View.ld_unit_zero (S := S756x128) hz, View.ld_unit_zero (S := S1x756) hz, View.ld_unit_zero (S := S756x756) hz,
    View.ld_unit_zero (S := S16x756) hz, View.ld_unit_zero (S := S1x16) hz]

end Cert.KernelIdeal.Pieces
end
-- ==== Proof.Carried.lean ====
/-
  What the three scratch buffers and the output's staging buffer hold after each grid point.

  The scratch buffers are written at the first grid point only, with the weight blocks changed to bf16, and no later
  point stores into them: after every point they hold those same three values. The output's staging buffer after point
  t is therefore the three-layer payload of point t's state block, the two hidden biases, the three carried weight
  values and the output bias — whichever of the two control cases ran.
-/
import proofs.«126241_g39943195853490_cont_8to1_b_464_15_alg».proof.Proof.Pieces

noncomputable section

open Idealize.ShloMosaic Idealize.ShloMosaic.TcCoe Idealize.SL.Sem
open Idealize.ShloMosaic.Pipeline (Dat)

namespace Cert.KernelIdeal.Carried

open Cert.KernelIdeal Cert.KernelIdeal.Gen Cert.KernelIdeal.Pieces

variable {F : FTy → Type} [FloatOps F]
variable (m : (ℓ : Loc nD τ sig) → Buf (Elt F) ℓ)

/-! ## The two control cases at a grid point's own buffers and blocks -/

set_option maxHeartbeats 1600000 in
/-- The first weight scratch after a first-case body at point t, over the point's blocks. -/
theorem scratch0_at (c : Dev nD) (t : Fin cfg0.N) (hc : cond0_0 (grid0.coords t)) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) = k0_pay1 (iblk m c 1 t) :=
  scratch0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t)

set_option maxHeartbeats 1600000 in
/-- The second weight scratch after a first-case body at point t. -/
theorem scratch1_at (c : Dev nD) (t : Fin cfg0.N) (hc : cond0_0 (grid0.coords t)) :
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) = k0_pay2 (iblk m c 3 t) :=
  scratch1_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t)

set_option maxHeartbeats 1600000 in
/-- The third weight scratch after a first-case body at point t. -/
theorem scratch2_at (c : Dev nD) (t : Fin cfg0.N) (hc : cond0_0 (grid0.coords t)) :
    sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) = k0_pay3 (iblk m c 5 t) :=
  scratch2_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t)

set_option maxHeartbeats 1600000 in
/-- The output block after a first-case body at point t. -/
theorem outA_at (c : Dev nD) (t : Fin cfg0.N) (hc : cond0_0 (grid0.coords t)) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t)
      = k0_pay4 (iblk m c 0 t) (iblk m c 2 t) (iblk m c 4 t) (k0_pay1 (iblk m c 1 t)) (k0_pay2 (iblk m c 3 t)) (k0_pay3 (iblk m c 5 t)) (iblk m c 6 t) :=
  out7_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t)

set_option maxHeartbeats 1600000 in
/-- The output block after a later-case body at point t, over whatever the scratch buffers held. -/
theorem outB_at (c : Dev nD) (t : Fin cfg0.N) (hc : ¬cond0_0 (grid0.coords t))
    (xs0 : Vec F S756x128 .bf16) (xs1 : Vec F S756x756 .bf16) (xs2 : Vec F S16x756 .bf16) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) xs0 xs1 xs2
      = k0_pay4 (iblk m c 0 t) (iblk m c 2 t) (iblk m c 4 t) xs0 xs1 xs2 (iblk m c 6 t) :=
  out7_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) xs0 xs1 xs2

/-! ## After each grid point -/

/-- The grid has a first point. -/
theorem first_lt : 0 < cfg0.N := by rw [show cfg0.N = 4 from N_0]; decide

/-- The first grid point. -/
abbrev first : Fin cfg0.N := ⟨0, first_lt⟩

/-- The three weight values the scratch buffers carry: the weight blocks the first point was given, changed to bf16. -/
def w1c (c : Dev nD) : Vec F S756x128 .bf16 := k0_pay1 (iblk m c 1 first)
def w2c (c : Dev nD) : Vec F S756x756 .bf16 := k0_pay2 (iblk m c 3 first)
def w3c (c : Dev nD) : Vec F S16x756 .bf16 := k0_pay3 (iblk m c 5 first)

/-- After every grid point the three scratch buffers hold the carried weight values: the first point stores them, a
    later point leaves what the point before it left. -/
theorem scratch_eq (c : Dev nD) : ∀ (n : ℕ) (h : n < cfg0.N),
    (outsAt0 m c n h).2.1 = w1c m c ∧ (outsAt0 m c n h).2.2.1 = w2c m c ∧ (outsAt0 m c n h).2.2.2 = w3c m c
  | 0, h => by
    rw [outsAt0_A m c ⟨0, h⟩ rfl]
    dsimp only
    unfold w1c w2c w3c
    exact ⟨scratch0_at m c ⟨0, h⟩ _, scratch1_at m c ⟨0, h⟩ _, scratch2_at m c ⟨0, h⟩ _⟩
  | n + 1, h => by
    have hN : cfg0.N = 4 := N_0
    have hB : ¬(⟨n + 1, h⟩ : Fin cfg0.N).val % 4 = 0 := by dsimp only; omega
    have ih := scratch_eq c n (Nat.lt_of_succ_lt h)
    rw [outsAt0_B m c ⟨n + 1, h⟩ hB]
    exact ih

/-- After grid point t the output's staging buffer holds the three-layer payload of the point's own state block and
    bias blocks and the carried weight values. -/
theorem out_eq (c : Dev nD) (t : Fin cfg0.N) :
    (outsAt0 m c t.val t.isLt).1
      = k0_pay4 (iblk m c 0 t) (iblk m c 2 t) (iblk m c 4 t) (w1c m c) (w2c m c) (w3c m c) (iblk m c 6 t) := by
  have hN : cfg0.N = 4 := N_0
  by_cases h0 : t.val % 4 = 0
  · have ht : t = first := Fin.ext (by have := t.isLt; show t.val = 0; omega)
    subst ht
    rw [outsAt0_A m c first h0]
    dsimp only
    unfold w1c w2c w3c
    exact outA_at m c first _
  · have hp : t.val - 1 < cfg0.N := Nat.lt_of_le_of_lt (Nat.sub_le _ _) t.isLt
    obtain ⟨e1, e2, e3⟩ := scratch_eq m c (t.val - 1) hp
    rw [outsAt0_B m c t h0]
    dsimp only
    rw [e1, e2, e3]
    exact outB_at m c t _ _ _ _

end Cert.KernelIdeal.Carried

end
-- ==== Proof.Spec.lean ====
/-
  The function both programs compute: a three-layer perceptron, one batch row at a time, over the extended reals.

  For a batch row `xr` (128 features) and weights stored as (fan_out, fan_in) matrices,
    hidden1 j = max (∑_d xr d · W1[j, d] + b1 j) 0          (756 units)
    hidden2 k = max (∑_j hidden1 j · W2[k, j] + b2 k) 0      (756 units)
    action  a = ∑_k hidden2 k · W3[a, k] + b3 a              (16 outputs)
  and the result array's entry (r, a) is `action a` of row r of the state. Each row of the result depends on the same
  row of the state only, which is why the batch can be cut into row blocks. Nothing here needs the inputs to be finite:
  the two programs apply the same sums, additions and maxima in the same order, so no law beyond the definitions joins them.
-/
import Idealize.ShloMosaic.PureOps.Ideal
import Idealize.ShloMosaic.Lib.ValueIdx

noncomputable section

namespace Mlp3

open Idealize.ShloMosaic Idealize.ShloMosaic.ValueIdx

/-- First hidden layer of one batch row: unit j. -/
def hidden1 (xr : Fin 128 → EReal) (W1 : (⟨2, ![756, 128]⟩ : Shape).Idx → EReal) (b1 : Fin 756 → EReal) (j : Fin 756) : EReal :=
  max ((∑ d : Fin 128, xr d * W1 (ix2 j d)) + b1 j) 0

/-- Second hidden layer of one batch row: unit k. -/
def hidden2 (xr : Fin 128 → EReal) (W1 : (⟨2, ![756, 128]⟩ : Shape).Idx → EReal) (b1 : Fin 756 → EReal)
    (W2 : (⟨2, ![756, 756]⟩ : Shape).Idx → EReal) (b2 : Fin 756 → EReal) (k : Fin 756) : EReal :=
  max ((∑ j : Fin 756, hidden1 xr W1 b1 j * W2 (ix2 k j)) + b2 k) 0

/-- The output layer of one batch row: action a. -/
def action (xr : Fin 128 → EReal) (W1 : (⟨2, ![756, 128]⟩ : Shape).Idx → EReal) (b1 : Fin 756 → EReal)
    (W2 : (⟨2, ![756, 756]⟩ : Shape).Idx → EReal) (b2 : Fin 756 → EReal)
    (W3 : (⟨2, ![16, 756]⟩ : Shape).Idx → EReal) (b3 : Fin 16 → EReal) (a : Fin 16) : EReal :=
  (∑ k : Fin 756, hidden2 xr W1 b1 W2 b2 k * W3 (ix2 a k)) + b3 a

/-- Row r of a two-dimensional array of 128-feature rows. -/
abbrev rowOf {R : Nat} (x : (⟨2, ![R, 128]⟩ : Shape).Idx → EReal) (r : Fin R) : Fin 128 → EReal := fun d => x (ix2 r d)

/-- A vector argument (a bias) as a function of its one coordinate. -/
abbrev vecOf {n : Nat} (b : (⟨1, ![n]⟩ : Shape).Idx → EReal) : Fin n → EReal := fun j => b (ix1 j)

/-- The whole result array: entry (r, a) is action a of the state's row r. -/
def mlp (x : (⟨2, ![16384, 128]⟩ : Shape).Idx → EReal) (W1 : (⟨2, ![756, 128]⟩ : Shape).Idx → EReal)
    (b1 : (⟨1, ![756]⟩ : Shape).Idx → EReal) (W2 : (⟨2, ![756, 756]⟩ : Shape).Idx → EReal)
    (b2 : (⟨1, ![756]⟩ : Shape).Idx → EReal) (W3 : (⟨2, ![16, 756]⟩ : Shape).Idx → EReal)
    (b3 : (⟨1, ![16]⟩ : Shape).Idx → EReal) : (⟨2, ![16384, 16]⟩ : Shape).Idx → EReal :=
  fun i => action (rowOf x ⟨(i 0).val, idx2_lt0 i⟩) W1 (vecOf b1) W2 (vecOf b2) W3 (vecOf b3) ⟨(i 1).val, idx2_lt1 i⟩

/-- The result array at explicit coordinates. -/
theorem mlp_ix2 (x : (⟨2, ![16384, 128]⟩ : Shape).Idx → EReal) (W1 : (⟨2, ![756, 128]⟩ : Shape).Idx → EReal)
    (b1 : (⟨1, ![756]⟩ : Shape).Idx → EReal) (W2 : (⟨2, ![756, 756]⟩ : Shape).Idx → EReal)
    (b2 : (⟨1, ![756]⟩ : Shape).Idx → EReal) (W3 : (⟨2, ![16, 756]⟩ : Shape).Idx → EReal)
    (b3 : (⟨1, ![16]⟩ : Shape).Idx → EReal) (r : Fin 16384) (a : Fin 16) :
    mlp x W1 b1 W2 b2 W3 b3 (ix2 r a) = action (rowOf x r) W1 (vecOf b1) W2 (vecOf b2) W3 (vecOf b3) a := rfl

/-- The bf16 zero word denotes the extended real 0. -/
theorem ofBits_zero_bf16 : Ideal.ofBits .bf16 0x0000#16 = 0 := by simp [Ideal.ofBits, Ideal.ieee]

end Mlp3

end
-- ==== Proof.Payload.lean ====
/-
  The body's arithmetic at one entry of a block, over the extended reals.

  Each of the three matrix products contracts the second axis of both operands (the weights are stored fan_out by
  fan_in), into a zero accumulator: entry (p, j) is the plain sum over d of lhs[p, d] · rhs[j, d]. A bias row of shape
  (1, n) broadcast down the rows reads its column j at every row. Format changes are the identity. So one entry of the
  block the body stores is the three-layer function of the state block's row p.
-/
import proofs.«126241_g39943195853490_cont_8to1_b_464_15_alg».proof.Proof.Gen.KernelIdeal.Skeleton
import proofs.«126241_g39943195853490_cont_8to1_b_464_15_alg».proof.Proof.Spec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Mlp3

/-- The first product at entry (p, j): the sum over the 128 features of state[p, d] · W1[j, d]. -/
theorem mm1_apply (lhs : FVec Ideal S4096x128 .bf16) (rhs : FVec Ideal S756x128 .bf16) (p : Fin 4096) (j : Fin 756) :
    (matmul dot_S4096x128_S756x128_S4096x756_1_1_0_0_n_n none lhs rhs (constant (F := Ideal) S4096x756 .f32 0x00000000#32)) (ix2 p j)
      = ∑ d : Fin 128, lhs (ix2 p d) * rhs (ix2 j d) := by
  simp only [matmul]
  rw [Ideal.matmul_constant_zero_apply, ← Equiv.sum_comp (contrEquiv1 dot_S4096x128_S756x128_S4096x756_1_1_0_0_n_n 128 rfl rfl).symm]
  refine Finset.sum_congr rfl fun k _ => ?_
  have hk := contrEquiv1_symm_val dot_S4096x128_S756x128_S4096x756_1_1_0_0_n_n 128 rfl rfl k
  have el : dot_S4096x128_S756x128_S4096x756_1_1_0_0_n_n.lhsIdx (ix2 p j) ((contrEquiv1 dot_S4096x128_S756x128_S4096x756_1_1_0_0_n_n 128 rfl rfl).symm k) = ix2 p k := funext fun a => Fin.ext (by
    match a with
    | ⟨0, _⟩ =>
      show (dot_S4096x128_S756x128_S4096x756_1_1_0_0_n_n.lhsIdx (ix2 p j) _ 0).val = p.val
      unfold DotDims.lhsIdx
      rw [dif_neg (show ¬(0 : Fin S4096x128.rank) ∈ dot_S4096x128_S756x128_S4096x756_1_1_0_0_n_n.lhsBatch by decide), dif_pos (show (0 : Fin S4096x128.rank) ∈ dot_S4096x128_S756x128_S4096x756_1_1_0_0_n_n.lhsNonContracting by decide)]
      rfl
    | ⟨1, _⟩ => exact (dot_S4096x128_S756x128_S4096x756_1_1_0_0_n_n.lhsIdx_val_of_single rfl _ _).trans hk)
  have er : dot_S4096x128_S756x128_S4096x756_1_1_0_0_n_n.rhsIdx (ix2 p j) ((contrEquiv1 dot_S4096x128_S756x128_S4096x756_1_1_0_0_n_n 128 rfl rfl).symm k) = ix2 j k := funext fun a => Fin.ext (by
    match a with
    | ⟨0, _⟩ =>
      show (dot_S4096x128_S756x128_S4096x756_1_1_0_0_n_n.rhsIdx (ix2 p j) _ 0).val = j.val
      unfold DotDims.rhsIdx
      rw [dif_neg (show ¬(0 : Fin S756x128.rank) ∈ dot_S4096x128_S756x128_S4096x756_1_1_0_0_n_n.rhsBatch by decide), dif_pos (show (0 : Fin S756x128.rank) ∈ dot_S4096x128_S756x128_S4096x756_1_1_0_0_n_n.rhsNonContracting by decide)]
      rfl
    | ⟨1, _⟩ => exact (dot_S4096x128_S756x128_S4096x756_1_1_0_0_n_n.rhsIdx_val_of_single rfl _ _).trans hk)
  rw [el, er]

/-- The second product at entry (p, k): the sum over the 756 hidden units of h1[p, j] · W2[k, j]. -/
theorem mm2_apply (lhs : FVec Ideal S4096x756 .bf16) (rhs : FVec Ideal S756x756 .bf16) (p : Fin 4096) (j : Fin 756) :
    (matmul dot_S4096x756_S756x756_S4096x756_1_1_0_0_n_n none lhs rhs (constant (F := Ideal) S4096x756 .f32 0x00000000#32)) (ix2 p j)
      = ∑ d : Fin 756, lhs (ix2 p d) * rhs (ix2 j d) := by
  simp only [matmul]
  rw [Ideal.matmul_constant_zero_apply, ← Equiv.sum_comp (contrEquiv1 dot_S4096x756_S756x756_S4096x756_1_1_0_0_n_n 756 rfl rfl).symm]
  refine Finset.sum_congr rfl fun k _ => ?_
  have hk := contrEquiv1_symm_val dot_S4096x756_S756x756_S4096x756_1_1_0_0_n_n 756 rfl rfl k
  have el : dot_S4096x756_S756x756_S4096x756_1_1_0_0_n_n.lhsIdx (ix2 p j) ((contrEquiv1 dot_S4096x756_S756x756_S4096x756_1_1_0_0_n_n 756 rfl rfl).symm k) = ix2 p k := funext fun a => Fin.ext (by
    match a with
    | ⟨0, _⟩ =>
      show (dot_S4096x756_S756x756_S4096x756_1_1_0_0_n_n.lhsIdx (ix2 p j) _ 0).val = p.val
      unfold DotDims.lhsIdx
      rw [dif_neg (show ¬(0 : Fin S4096x756.rank) ∈ dot_S4096x756_S756x756_S4096x756_1_1_0_0_n_n.lhsBatch by decide), dif_pos (show (0 : Fin S4096x756.rank) ∈ dot_S4096x756_S756x756_S4096x756_1_1_0_0_n_n.lhsNonContracting by decide)]
      rfl
    | ⟨1, _⟩ => exact (dot_S4096x756_S756x756_S4096x756_1_1_0_0_n_n.lhsIdx_val_of_single rfl _ _).trans hk)
  have er : dot_S4096x756_S756x756_S4096x756_1_1_0_0_n_n.rhsIdx (ix2 p j) ((contrEquiv1 dot_S4096x756_S756x756_S4096x756_1_1_0_0_n_n 756 rfl rfl).symm k) = ix2 j k := funext fun a => Fin.ext (by
    match a with
    | ⟨0, _⟩ =>
      show (dot_S4096x756_S756x756_S4096x756_1_1_0_0_n_n.rhsIdx (ix2 p j) _ 0).val = j.val
      unfold DotDims.rhsIdx
      rw [dif_neg (show ¬(0 : Fin S756x756.rank) ∈ dot_S4096x756_S756x756_S4096x756_1_1_0_0_n_n.rhsBatch by decide), dif_pos (show (0 : Fin S756x756.rank) ∈ dot_S4096x756_S756x756_S4096x756_1_1_0_0_n_n.rhsNonContracting by decide)]
      rfl
    | ⟨1, _⟩ => exact (dot_S4096x756_S756x756_S4096x756_1_1_0_0_n_n.rhsIdx_val_of_single rfl _ _).trans hk)
  rw [el, er]

/-- The third product at entry (p, a): the sum over the 756 hidden units of h2[p, k] · W3[a, k]. -/
theorem mm3_apply (lhs : FVec Ideal S4096x756 .bf16) (rhs : FVec Ideal S16x756 .bf16) (p : Fin 4096) (j : Fin 16) :
    (matmul dot_S4096x756_S16x756_S4096x16_1_1_0_0_n_n none lhs rhs (constant (F := Ideal) S4096x16 .f32 0x00000000#32)) (ix2 p j)
      = ∑ d : Fin 756, lhs (ix2 p d) * rhs (ix2 j d) := by
  simp only [matmul]
  rw [Ideal.matmul_constant_zero_apply, ← Equiv.sum_comp (contrEquiv1 dot_S4096x756_S16x756_S4096x16_1_1_0_0_n_n 756 rfl rfl).symm]
  refine Finset.sum_congr rfl fun k _ => ?_
  have hk := contrEquiv1_symm_val dot_S4096x756_S16x756_S4096x16_1_1_0_0_n_n 756 rfl rfl k
  have el : dot_S4096x756_S16x756_S4096x16_1_1_0_0_n_n.lhsIdx (ix2 p j) ((contrEquiv1 dot_S4096x756_S16x756_S4096x16_1_1_0_0_n_n 756 rfl rfl).symm k) = ix2 p k := funext fun a => Fin.ext (by
    match a with
    | ⟨0, _⟩ =>
      show (dot_S4096x756_S16x756_S4096x16_1_1_0_0_n_n.lhsIdx (ix2 p j) _ 0).val = p.val
      unfold DotDims.lhsIdx
      rw [dif_neg (show ¬(0 : Fin S4096x756.rank) ∈ dot_S4096x756_S16x756_S4096x16_1_1_0_0_n_n.lhsBatch by decide), dif_pos (show (0 : Fin S4096x756.rank) ∈ dot_S4096x756_S16x756_S4096x16_1_1_0_0_n_n.lhsNonContracting by decide)]
      rfl
    | ⟨1, _⟩ => exact (dot_S4096x756_S16x756_S4096x16_1_1_0_0_n_n.lhsIdx_val_of_single rfl _ _).trans hk)
  have er : dot_S4096x756_S16x756_S4096x16_1_1_0_0_n_n.rhsIdx (ix2 p j) ((contrEquiv1 dot_S4096x756_S16x756_S4096x16_1_1_0_0_n_n 756 rfl rfl).symm k) = ix2 j k := funext fun a => Fin.ext (by
    match a with
    | ⟨0, _⟩ =>
      show (dot_S4096x756_S16x756_S4096x16_1_1_0_0_n_n.rhsIdx (ix2 p j) _ 0).val = j.val
      unfold DotDims.rhsIdx
      rw [dif_neg (show ¬(0 : Fin S16x756.rank) ∈ dot_S4096x756_S16x756_S4096x16_1_1_0_0_n_n.rhsBatch by decide), dif_pos (show (0 : Fin S16x756.rank) ∈ dot_S4096x756_S16x756_S4096x16_1_1_0_0_n_n.rhsNonContracting by decide)]
      rfl
    | ⟨1, _⟩ => exact (dot_S4096x756_S16x756_S4096x16_1_1_0_0_n_n.rhsIdx_val_of_single rfl _ _).trans hk)
  rw [el, er]

/-- A bias row added to a product and clamped at zero, at entry (p, j): the row's column j at every p. -/
theorem bias_relu_apply (mm : FVec Ideal S4096x756 .f32) (b : FVec Ideal S1x756 .f32)
    (h1 : FTy.bits .bf16 < FTy.bits .f32) (h2 : S1x756.ShapeCasts S1x756) (h3 : S1x756.Broadcasts S4096x756)
    (p : Fin 4096) (j : Fin 756) :
    (maximumf (addf (truncf .bf16 mm h1) (broadcastTo S4096x756 (truncf .bf16 (shapeCast S1x756 b h2) h1) h3))
        (broadcast S4096x756 (Scalar.ofBits (F := Ideal) .bf16 0x0000#16))) (ix2 p j)
      = max (mm (ix2 p j) + b (ix2 (0 : Fin 1) j)) 0 := by
  rw [shapeCast_self, maximumf_apply, addf_apply, broadcast_apply,
    broadcastTo_apply (truncf .bf16 b h1) h3 (ix2 p j) (ix2 (0 : Fin 1) j) (fun a => by
      match a with
      | ⟨0, _⟩ => show 0 = if (1 : Nat) = 1 then 0 else _; rw [if_pos rfl]
      | ⟨1, _⟩ => show j.val = if (756 : Nat) = 1 then 0 else j.val; rw [if_neg (by decide)]),
    truncf_apply, truncf_apply]
  show max (_ + _) (Ideal.ofBits .bf16 0x0000#16) = _
  rw [ofBits_zero_bf16]

/-- The output bias row added to the last product, at entry (p, a). -/
theorem bias_out_apply (mm : FVec Ideal S4096x16 .f32) (b : FVec Ideal S1x16 .f32)
    (h2 : S1x16.ShapeCasts S1x16) (h3 : S1x16.Broadcasts S4096x16) (p : Fin 4096) (a : Fin 16) :
    (addf mm (broadcastTo S4096x16 (shapeCast S1x16 b h2) h3)) (ix2 p a) = mm (ix2 p a) + b (ix2 (0 : Fin 1) a) := by
  rw [shapeCast_self, addf_apply, broadcastTo_apply b h3 (ix2 p a) (ix2 (0 : Fin 1) a) (fun d => by
    match d with
    | ⟨0, _⟩ => show 0 = if (1 : Nat) = 1 then 0 else _; rw [if_pos rfl]
    | ⟨1, _⟩ => show a.val = if (16 : Nat) = 1 then 0 else a.val; rw [if_neg (by decide)])]

/-- The first hidden layer as the body computes it, as a block of 4096 rows. -/
def lay1 (x0 : FVec Ideal S4096x128 .f32) (v5 : FVec Ideal S1x756 .f32) (w1 : FVec Ideal S756x128 .bf16) : FVec Ideal S4096x756 .bf16 :=
  maximumf (addf (truncf .bf16 (matmul dot_S4096x128_S756x128_S4096x756_1_1_0_0_n_n none (truncf .bf16 x0 bitsLt_bf16_f32) w1 (constant S4096x756 .f32 0x00000000#32)) bitsLt_bf16_f32)
      (broadcastTo S4096x756 (truncf .bf16 (shapeCast S1x756 v5 shapeCasts_S1x756_S1x756) bitsLt_bf16_f32) broadcasts_S1x756_S4096x756))
    (broadcast S4096x756 (Scalar.ofBits .bf16 0x0000#16))

/-- The second hidden layer as the body computes it from the first. -/
def lay2 (h : FVec Ideal S4096x756 .bf16) (v8 : FVec Ideal S1x756 .f32) (w2 : FVec Ideal S756x756 .bf16) : FVec Ideal S4096x756 .bf16 :=
  maximumf (addf (truncf .bf16 (matmul dot_S4096x756_S756x756_S4096x756_1_1_0_0_n_n none h w2 (constant S4096x756 .f32 0x00000000#32)) bitsLt_bf16_f32)
      (broadcastTo S4096x756 (truncf .bf16 (shapeCast S1x756 v8 shapeCasts_S1x756_S1x756) bitsLt_bf16_f32) broadcasts_S1x756_S4096x756))
    (broadcast S4096x756 (Scalar.ofBits .bf16 0x0000#16))

/-- The stored block is the output layer over the two hidden layers. -/
theorem pay4_eq (x0 : FVec Ideal S4096x128 .f32) (v5 v8 : FVec Ideal S1x756 .f32) (w1 : FVec Ideal S756x128 .bf16)
    (w2 : FVec Ideal S756x756 .bf16) (w3 : FVec Ideal S16x756 .bf16) (v27 : FVec Ideal S1x16 .f32) :
    k0_pay4 (F := Ideal) x0 v5 v8 w1 w2 w3 v27
      = addf (matmul dot_S4096x756_S16x756_S4096x16_1_1_0_0_n_n none (lay2 (lay1 x0 v5 w1) v8 w2) w3 (constant S4096x16 .f32 0x00000000#32))
          (broadcastTo S4096x16 (shapeCast S1x16 v27 shapeCasts_S1x16_S1x16) broadcasts_S1x16_S4096x16) := rfl

/-- Entry (p, j) of the first hidden layer's block is unit j of row p. -/
theorem lay1_apply (x0 : FVec Ideal S4096x128 .f32) (v5 : FVec Ideal S1x756 .f32) (w1 : FVec Ideal S756x128 .bf16)
    (p : Fin 4096) (j : Fin 756) :
    lay1 x0 v5 w1 (ix2 p j) = hidden1 (rowOf x0 p) w1 (fun j => v5 (ix2 (0 : Fin 1) j)) j := by
  unfold lay1 hidden1
  rw [bias_relu_apply, mm1_apply]
  rfl

/-- Entry (p, k) of the second hidden layer's block is unit k of row p. -/
theorem lay2_apply (x0 : FVec Ideal S4096x128 .f32) (v5 v8 : FVec Ideal S1x756 .f32) (w1 : FVec Ideal S756x128 .bf16)
    (w2 : FVec Ideal S756x756 .bf16) (p : Fin 4096) (k : Fin 756) :
    lay2 (lay1 x0 v5 w1) v8 w2 (ix2 p k)
      = hidden2 (rowOf x0 p) w1 (fun j => v5 (ix2 (0 : Fin 1) j)) w2 (fun k => v8 (ix2 (0 : Fin 1) k)) k := by
  unfold lay2 hidden2
  rw [bias_relu_apply, mm2_apply]
  simp only [lay1_apply]

/-- Entry (p, q) of the block the body stores is action q of the state block's row p. -/
theorem pay4_apply (x0 : FVec Ideal S4096x128 .f32) (v5 v8 : FVec Ideal S1x756 .f32) (w1 : FVec Ideal S756x128 .bf16)
    (w2 : FVec Ideal S756x756 .bf16) (w3 : FVec Ideal S16x756 .bf16) (v27 : FVec Ideal S1x16 .f32) (p : Fin 4096) (q : Fin 16) :
    k0_pay4 (F := Ideal) x0 v5 v8 w1 w2 w3 v27 (ix2 p q)
      = action (rowOf x0 p) w1 (fun j => v5 (ix2 (0 : Fin 1) j)) w2 (fun k => v8 (ix2 (0 : Fin 1) k)) w3
          (fun a => v27 (ix2 (0 : Fin 1) a)) q := by
  rw [pay4_eq, bias_out_apply, mm3_apply]
  unfold action
  simp only [lay2_apply]

/-- The weight copies are the weights: a format change and a reshape to the same shape are the identity. -/
theorem pay1_eq (x : FVec Ideal S756x128 .f32) : k0_pay1 (F := Ideal) x = x :=
  (shapeCast_self (truncf .bf16 x bitsLt_bf16_f32) shapeCasts_S756x128_S756x128).trans rfl
theorem pay2_eq (x : FVec Ideal S756x756 .f32) : k0_pay2 (F := Ideal) x = x :=
  (shapeCast_self (truncf .bf16 x bitsLt_bf16_f32) shapeCasts_S756x756_S756x756).trans rfl
theorem pay3_eq (x : FVec Ideal S16x756 .f32) : k0_pay3 (F := Ideal) x = x :=
  (shapeCast_self (truncf .bf16 x bitsLt_bf16_f32) shapeCasts_S16x756_S16x756).trans rfl

end Cert.KernelIdeal.Payload

end
-- ==== Proof.Blocks.lean ====
/-
  From the blocks to the whole result array.

  The grid has four points; point t is given rows 4096·t … 4096·t + 4095 of the state and writes back the same rows of
  the result, and it is given every weight and bias whole (the bias vectors as one-row matrices, which is how the
  program reshapes them before the launch). By the per-entry reading of the body's arithmetic, the block point t
  writes back is the block of the three-layer function of the launch arrays. The four row blocks tile the 16384 rows
  (row r lies in block r / 4096), so the result array ends at that function everywhere.
-/
import proofs.«126241_g39943195853490_cont_8to1_b_464_15_alg».proof.Proof.Gen.KernelIdeal.Value
import proofs.«126241_g39943195853490_cont_8to1_b_464_15_alg».proof.Proof.Carried
import proofs.«126241_g39943195853490_cont_8to1_b_464_15_alg».proof.Proof.Payload
import Idealize.ShloMosaic.Lib.StableHlo.Run

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Carried Cert.KernelIdeal.Payload
open Idealize.ShloMosaic.ValueIdx Mlp3

variable (m : (ℓ : Loc nD τ sig) → Buf (Elt Ideal) ℓ) (ρ : Dev nD → PrngReg)

/-- The block index of each window at each grid point: the state's and the result's row block moves with the point,
    every other window stays at block (0, 0). Decided over the four points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The three-layer function of the launch arrays on core c. -/
abbrev result (c : Dev nD) : S16384x16.Idx → EReal :=
  mlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-! ## What each window's block holds -/

/-- The state block of point t: rows 4096·t + p of the state. -/
theorem state_block (c : Dev nD) (t : Fin cfg0.N) (p : Fin 4096) (d : Fin 128) (hr : 4096 * t.val + p.val < 16384) :
    (iblk m c 0 t : FVec Ideal S4096x128 .f32) (ix2 p d) = (m ((c : Thread nD τ).loc main_arg0)) (ix2 ⟨4096 * t.val + p.val, hr⟩ d) := by
  refine (?_ : _ = V m c main_arg0 (ix2 ⟨4096 * t.val + p.val, hr⟩ d)).trans (congrFun (V_main_arg0 m c) _)
  show V m c main_arg0 (((cfg0.win 0).blk t).view.emb (ix2 p d)) = _
  refine congrArg (V m c main_arg0) (funext fun a => Fin.ext ?_)
  have e := idx_facts t
  match a with
  | ⟨0, _⟩ => show win0_0.index t (0 : Fin 2) * 4096 + 1 * p.val = 4096 * t.val + p.val; rw [e.1]; omega
  | ⟨1, _⟩ => show win0_0.index t (1 : Fin 2) * 128 + 1 * d.val = d.val; rw [e.2.1]; omega

/-- The first weight window's block is the whole of W1, at every point. -/
theorem w1_block (c : Dev nD) (t : Fin cfg0.N) :
    (iblk m c 1 t : FVec Ideal S756x128 .f32) = (m ((c : Thread nD τ).loc main_arg1)) := by
  funext y
  obtain ⟨j, d, rfl⟩ : ∃ (j : Fin 756) (d : Fin 128), y = ix2 j d := ⟨y 0, y 1, eq_ix2 y⟩
  refine (?_ : _ = V m c main_arg1 (ix2 j d)).trans (congrFun (V_main_arg1 m c) _)
  show V m c main_arg1 (((cfg0.win 1).blk t).view.emb (ix2 j d)) = _
  refine congrArg (V m c main_arg1) (funext fun a => Fin.ext ?_)
  have e := idx_facts t
  match a with
  | ⟨0, _⟩ => show win0_1.index t (0 : Fin 2) * 756 + 1 * j.val = j.val; rw [e.2.2.1]; omega
  | ⟨1, _⟩ => show win0_1.index t (1 : Fin 2) * 128 + 1 * d.val = d.val; rw [e.2.2.2.1]; omega

/-- The second weight window's block is the whole of W2. -/
theorem w2_block (c : Dev nD) (t : Fin cfg0.N) :
    (iblk m c 3 t : FVec Ideal S756x756 .f32) = (m ((c : Thread nD τ).loc main_arg3)) := by
  funext y
  obtain ⟨j, d, rfl⟩ : ∃ (j : Fin 756) (d : Fin 756), y = ix2 j d := ⟨y 0, y 1, eq_ix2 y⟩
  refine (?_ : _ = V m c main_arg3 (ix2 j d)).trans (congrFun (V_main_arg3 m c) _)
  show V m c main_arg3 (((cfg0.win 3).blk t).view.emb (ix2 j d)) = _
  refine congrArg (V m c main_arg3) (funext fun a => Fin.ext ?_)
  have e := idx_facts t
  match a with
  | ⟨0, _⟩ => show win0_3.index t (0 : Fin 2) * 756 + 1 * j.val = j.val; rw [e.2.2.2.2.2.2.1]; omega
  | ⟨1, _⟩ => show win0_3.index t (1 : Fin 2) * 756 + 1 * d.val = d.val; rw [e.2.2.2.2.2.2.2.1]; omega

/-- The third weight window's block is the whole of W3. -/
theorem w3_block (c : Dev nD) (t : Fin cfg0.N) :
    (iblk m c 5 t : FVec Ideal S16x756 .f32) = (m ((c : Thread nD τ).loc main_arg5)) := by
  funext y
  obtain ⟨j, d, rfl⟩ : ∃ (j : Fin 16) (d : Fin 756), y = ix2 j d := ⟨y 0, y 1, eq_ix2 y⟩
  refine (?_ : _ = V m c main_arg5 (ix2 j d)).trans (congrFun (V_main_arg5 m c) _)
  show V m c main_arg5 (((cfg0.win 5).blk t).view.emb (ix2 j d)) = _
  refine congrArg (V m c main_arg5) (funext fun a => Fin.ext ?_)
  have e := idx_facts t
  match a with
  | ⟨0, _⟩ => show win0_5.index t (0 : Fin 2) * 16 + 1 * j.val = j.val; rw [e.2.2.2.2.2.2.2.2.2.2.1]; omega
  | ⟨1, _⟩ => show win0_5.index t (1 : Fin 2) * 756 + 1 * d.val = d.val; rw [e.2.2.2.2.2.2.2.2.2.2.2.1]; omega

/-- The first bias window's one row is the bias vector b1: the program reshapes b1 to a one-row matrix before the launch. -/
theorem b1_block (c : Dev nD) (t : Fin cfg0.N) (j : Fin 756) :
    (iblk m c 2 t : FVec Ideal S1x756 .f32) (ix2 (0 : Fin 1) j) = (m ((c : Thread nD τ).loc main_arg2)) (ix1 j) := by
  have hv : (V m c main_call0_v0 : S1x756.Idx → EReal) = shapeCast S1x756 (m ((c : Thread nD τ).loc main_arg2)) shapeCasts_S756_S1x756 := by
    dsimp only [Gen.V, Gen.hostOps0]; after_results; rfl
  show V m c main_call0_v0 (((cfg0.win 2).blk t).view.emb (ix2 (0 : Fin 1) j)) = _
  have e := idx_facts t
  have hemb : ((cfg0.win 2).blk t).view.emb (ix2 (0 : Fin 1) j) = ix2 (0 : Fin 1) j := funext fun a => Fin.ext (by
    match a with
    | ⟨0, _⟩ => show win0_2.index t (0 : Fin 2) * 1 + 1 * 0 = 0; rw [e.2.2.2.2.1]
    | ⟨1, _⟩ => show win0_2.index t (1 : Fin 2) * 756 + 1 * j.val = j.val; rw [e.2.2.2.2.2.1]; omega)
  rw [hemb, hv]
  exact shapeCast_apply _ _ (ix2 (0 : Fin 1) j) (ix1 j) (by
    rw [Shape.rowMajor_val_one, Shape.rowMajor_val_two]
    show j.val = 0 * 756 + j.val
    omega)

/-- The second bias window's one row is b2. -/
theorem b2_block (c : Dev nD) (t : Fin cfg0.N) (j : Fin 756) :
    (iblk m c 4 t : FVec Ideal S1x756 .f32) (ix2 (0 : Fin 1) j) = (m ((c : Thread nD τ).loc main_arg4)) (ix1 j) := by
  have hv : (V m c main_call0_v1 : S1x756.Idx → EReal) = shapeCast S1x756 (m ((c : Thread nD τ).loc main_arg4)) shapeCasts_S756_S1x756 := by
    dsimp only [Gen.V, Gen.hostOps0]; after_results; rfl
  show V m c main_call0_v1 (((cfg0.win 4).blk t).view.emb (ix2 (0 : Fin 1) j)) = _
  have e := idx_facts t
  have hemb : ((cfg0.win 4).blk t).view.emb (ix2 (0 : Fin 1) j) = ix2 (0 : Fin 1) j := funext fun a => Fin.ext (by
    match a with
    | ⟨0, _⟩ => show win0_4.index t (0 : Fin 2) * 1 + 1 * 0 = 0; rw [e.2.2.2.2.2.2.2.2.1]
    | ⟨1, _⟩ => show win0_4.index t (1 : Fin 2) * 756 + 1 * j.val = j.val; rw [e.2.2.2.2.2.2.2.2.2.1]; omega)
  rw [hemb, hv]
  exact shapeCast_apply _ _ (ix2 (0 : Fin 1) j) (ix1 j) (by
    rw [Shape.rowMajor_val_one, Shape.rowMajor_val_two]
    show j.val = 0 * 756 + j.val
    omega)

/-- The output bias window's one row is b3. -/
theorem b3_block (c : Dev nD) (t : Fin cfg0.N) (j : Fin 16) :
    (iblk m c 6 t : FVec Ideal S1x16 .f32) (ix2 (0 : Fin 1) j) = (m ((c : Thread nD τ).loc main_arg6)) (ix1 j) := by
  have hv : (V m c main_call0_v2 : S1x16.Idx → EReal) = shapeCast S1x16 (m ((c : Thread nD τ).loc main_arg6)) shapeCasts_S16_S1x16 := by
    dsimp only [Gen.V, Gen.hostOps0]; after_results; rfl
  show V m c main_call0_v2 (((cfg0.win 6).blk t).view.emb (ix2 (0 : Fin 1) j)) = _
  have e := idx_facts t
  have hemb : ((cfg0.win 6).blk t).view.emb (ix2 (0 : Fin 1) j) = ix2 (0 : Fin 1) j := funext fun a => Fin.ext (by
    match a with
    | ⟨0, _⟩ => show win0_6.index t (0 : Fin 2) * 1 + 1 * 0 = 0; rw [e.2.2.2.2.2.2.2.2.2.2.2.2.1]
    | ⟨1, _⟩ => show win0_6.index t (1 : Fin 2) * 16 + 1 * j.val = j.val; rw [e.2.2.2.2.2.2.2.2.2.2.2.2.2.1]; omega)
  rw [hemb, hv]
  exact shapeCast_apply _ _ (ix2 (0 : Fin 1) j) (ix1 j) (by
    rw [Shape.rowMajor_val_one, Shape.rowMajor_val_two]
    show j.val = 0 * 16 + j.val
    omega)

/-! ## The block a point writes back, and the whole array -/

/-- The three-layer function depends on its seven arguments only. -/
theorem action_congr {xr xr' : Fin 128 → EReal} {W1 W1' : (⟨2, ![756, 128]⟩ : Shape).Idx → EReal} {b1 b1' : Fin 756 → EReal}
    {W2 W2' : (⟨2, ![756, 756]⟩ : Shape).Idx → EReal} {b2 b2' : Fin 756 → EReal}
    {W3 W3' : (⟨2, ![16, 756]⟩ : Shape).Idx → EReal} {b3 b3' : Fin 16 → EReal} (q : Fin 16)
    (h0 : xr = xr') (h1 : W1 = W1') (h2 : b1 = b1') (h3 : W2 = W2') (h4 : b2 = b2') (h5 : W3 = W3') (h6 : b3 = b3') :
    action xr W1 b1 W2 b2 W3 b3 q = action xr' W1' b1' W2' b2' W3' b3' q := by
  subst h0 h1 h2 h3 h4 h5 h6; rfl

/-- What point t writes back is block t of the three-layer function of the launch arrays. -/
theorem flushed_eq (c : Dev nD) (t : Fin cfg0.N) :
    (dats m 0 c).flushed 7 t = ((cfg0.win 7).blk t).view.read (Elt Ideal) (result m c) := by
  rw [Cert.KernelIdeal.Value.flushed7, out_eq]
  funext y
  obtain ⟨p, q, rfl⟩ : ∃ (p : Fin 4096) (q : Fin 16), y = ix2 p q := ⟨y 0, y 1, eq_ix2 y⟩
  have ht : t.val < 4 := lt_of_lt_of_eq t.isLt N_0
  have hr : 4096 * t.val + p.val < 16384 := by have := p.isLt; omega
  have e := idx_facts t
  have hemb : ((cfg0.win 7).blk t).view.emb (ix2 p q) = ix2 (⟨4096 * t.val + p.val, hr⟩ : Fin 16384) q :=
    funext fun a => Fin.ext (by
      match a with
      | ⟨0, _⟩ => show win0_7.index t (0 : Fin 2) * 4096 + 1 * p.val = 4096 * t.val + p.val; rw [e.2.2.2.2.2.2.2.2.2.2.2.2.2.2.1]; omega
      | ⟨1, _⟩ => show win0_7.index t (1 : Fin 2) * 16 + 1 * q.val = q.val; rw [e.2.2.2.2.2.2.2.2.2.2.2.2.2.2.2]; omega)
  show k0_pay4 (F := Ideal) (iblk m c 0 t) (iblk m c 2 t) (iblk m c 4 t) (w1c m c) (w2c m c) (w3c m c) (iblk m c 6 t) (ix2 p q)
    = result m c (((cfg0.win 7).blk t).view.emb (ix2 p q))
  refine (pay4_apply (iblk m c 0 t) (iblk m c 2 t) (iblk m c 4 t) (w1c m c) (w2c m c) (w3c m c) (iblk m c 6 t) p q).trans ?_
  refine Eq.trans ?_ (congrArg (result m c) hemb.symm)
  refine (action_congr q ?_ ?_ ?_ ?_ ?_ ?_ ?_).trans (mlp_ix2 _ _ _ _ _ _ _ ⟨4096 * t.val + p.val, hr⟩ q).symm
  · exact funext fun d => state_block m c t p d hr
  · exact (pay1_eq _).trans (w1_block m c first)
  · exact funext fun j => b1_block m c t j
  · exact (pay2_eq _).trans (w2_block m c first)
  · exact funext fun k => b2_block m c t k
  · exact (pay3_eq _).trans (w3_block m c first)
  · exact funext fun a => b3_block m c t a

/-- An index of the result array is in point t's block iff each coordinate is in the block's range on its axis. -/
theorem mem_blk (t : Fin cfg0.N) (i : S16384x16.Idx) :
    i ∈ ((cfg0.win 7).blk t).view.set ↔ ∀ a : Fin 2, win0_7.index t a * S4096x16.size a ≤ (i a).val ∧ (i a).val < win0_7.index t a * S4096x16.size a + S4096x16.size a := by
  show i ∈ ((View.whole main_v0).slice (win0_7.rect t)).set ↔ _
  rw [View.set_slice_whole, Rect.mem_set_unit]
  exact Iff.rfl

/-- The result array after the run is the three-layer function of the launch arrays: row r is written back by point
    r / 4096. -/
theorem final (c : Dev nD) : (dats m 0 c).arrAt 7 cfg0.N = result m c :=
  (dats m 0 c).arrAt_eq_of_cover 7 (result m c) (fun t _ => flushed_eq m c t) fun i => by
    have hi0 : (i 0).val < 16384 := (i 0).isLt
    have hi1 : (i 1).val < 16 := (i 1).isLt
    have hN : cfg0.N = 4 := N_0
    refine ⟨⟨(i 0).val / 4096, by rw [hN]; omega⟩, flush0_7 _, ?_⟩
    have e := idx_facts ⟨(i 0).val / 4096, by rw [hN]; omega⟩
    rw [mem_blk]
    intro a
    match a with
    | ⟨0, _⟩ =>
      show win0_7.index _ (0 : Fin 2) * 4096 ≤ (i 0).val ∧ (i 0).val < win0_7.index _ (0 : Fin 2) * 4096 + 4096
      rw [e.2.2.2.2.2.2.2.2.2.2.2.2.2.2.1]; dsimp only; omega
    | ⟨1, _⟩ =>
      show win0_7.index _ (1 : Fin 2) * 16 ≤ (i 1).val ∧ (i 1).val < win0_7.index _ (1 : Fin 2) * 16 + 16
      rw [e.2.2.2.2.2.2.2.2.2.2.2.2.2.2.2]; omega

/-- The kernel's run, read: the result array at the three-layer function of the launch arrays, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Blocks

end
-- ==== Proof.RefSpec.lean ====
/-
  The reference program's result is the three-layer function of its arguments, entry by entry.

  The reference transposes each weight matrix and contracts the state's (or a hidden layer's) second axis with the
  transposed matrix's first, which reads the same entries W[j, d] as contracting both second axes; each bias vector
  is broadcast along the rows; relu is the maximum with a zero splat.
-/
import proofs.«126241_g39943195853490_cont_8to1_b_464_15_alg».proof.Proof.Gen.ReferenceIdeal.Read
import proofs.«126241_g39943195853490_cont_8to1_b_464_15_alg».proof.Proof.Spec

noncomputable section

namespace Cert.ReferenceIdeal.RefValue

open Cert.ReferenceIdeal Cert.ReferenceIdeal.Gen Cert.ReferenceIdeal.Read Idealize.ShloMosaic Idealize.ShloMosaic.ValueIdx Mlp3

variable (x0 : (⟨S16384x128, .f32⟩ : BufTy).Contents (Elt Ideal)) (x1 : (⟨S756x128, .f32⟩ : BufTy).Contents (Elt Ideal)) (x2 : (⟨S756, .f32⟩ : BufTy).Contents (Elt Ideal))
  (x3 : (⟨S756x756, .f32⟩ : BufTy).Contents (Elt Ideal)) (x4 : (⟨S756, .f32⟩ : BufTy).Contents (Elt Ideal)) (x5 : (⟨S16x756, .f32⟩ : BufTy).Contents (Elt Ideal)) (x6 : (⟨S16, .f32⟩ : BufTy).Contents (Elt Ideal))

/-- The reference's first relu output at (r, j) is unit j of the first hidden layer of row r. -/
theorem hid1_eq (r : Fin 16384) (j : Fin 756) :
    val_main_v5 (F := Ideal) x0 x1 x2 (ix2 r j) = hidden1 (rowOf x0 r) x1 (vecOf x2) j := by
  rw [val_main_v5_apply, val_main_v4_apply, val_main_v1_apply, val_main_v3_apply, val_main_v2_apply,
    val_main_call0_v0_apply, val_main_call0_cst_apply]
  simp only [val_main_v0_apply]
  unfold hidden1
  have e1 : ∀ k : Fin 128, lidx_main_v1 (ix2 r j) k = ix2 r k := fun k => funext fun a => Fin.ext (by
    match a with | ⟨0, _⟩ => rfl | ⟨1, _⟩ => rfl)
  have e2 : ∀ k : Fin 128, idx_main_v0 (ridx_main_v1 (ix2 r j) k) = ix2 j k := fun k => funext fun a => Fin.ext (by
    match a with | ⟨0, _⟩ => rfl | ⟨1, _⟩ => rfl)
  have e3 : idx_main_v2 (idx_main_v3 (ix2 r j)) = ix1 j := funext fun a => Fin.ext (by
    match a with | ⟨0, _⟩ => rfl)
  simp only [e1, e2, e3, Ideal.maximumf_def, Ideal.addf_def, Ideal.ofBits_def, Ideal.ofBits_zero_f32]

/-- The reference's second relu output at (r, k) is unit k of the second hidden layer of row r. -/
theorem hid2_eq (r : Fin 16384) (k : Fin 756) :
    val_main_v11 (F := Ideal) x0 x1 x2 x3 x4 (ix2 r k) = hidden2 (rowOf x0 r) x1 (vecOf x2) x3 (vecOf x4) k := by
  rw [val_main_v11_apply, val_main_v10_apply, val_main_v7_apply, val_main_v9_apply, val_main_v8_apply,
    val_main_call1_v0_apply, val_main_call1_cst_apply]
  simp only [val_main_v6_apply]
  unfold hidden2
  have e1 : ∀ j : Fin 756, lidx_main_v7 (ix2 r k) j = ix2 r j := fun j => funext fun a => Fin.ext (by
    match a with | ⟨0, _⟩ => rfl | ⟨1, _⟩ => rfl)
  have e2 : ∀ j : Fin 756, idx_main_v6 (ridx_main_v7 (ix2 r k) j) = ix2 k j := fun j => funext fun a => Fin.ext (by
    match a with | ⟨0, _⟩ => rfl | ⟨1, _⟩ => rfl)
  have e3 : idx_main_v8 (idx_main_v9 (ix2 r k)) = ix1 k := funext fun a => Fin.ext (by
    match a with | ⟨0, _⟩ => rfl)
  simp only [e1, e2, e3, hid1_eq, Ideal.maximumf_def, Ideal.addf_def, Ideal.ofBits_def, Ideal.ofBits_zero_f32]

/-- The reference's result array is the three-layer function of its seven arguments. -/
theorem result_eq : val_main_v16 (F := Ideal) x0 x1 x2 x3 x4 x5 x6 = mlp x0 x1 x2 x3 x4 x5 x6 := by
  funext i
  obtain ⟨r, a, rfl⟩ : ∃ (r : Fin 16384) (a : Fin 16), i = ix2 r a := ⟨i 0, i 1, eq_ix2 i⟩
  rw [mlp_ix2, val_main_v16_apply, val_main_v13_apply, val_main_v15_apply, val_main_v14_apply]
  simp only [val_main_v12_apply]
  unfold action
  have e1 : ∀ k : Fin 756, lidx_main_v13 (ix2 r a) k = ix2 r k := fun k => funext fun d => Fin.ext (by
    match d with | ⟨0, _⟩ => rfl | ⟨1, _⟩ => rfl)
  have e2 : ∀ k : Fin 756, idx_main_v12 (ridx_main_v13 (ix2 r a) k) = ix2 a k := fun k => funext fun d => Fin.ext (by
    match d with | ⟨0, _⟩ => rfl | ⟨1, _⟩ => rfl)
  have e3 : idx_main_v14 (idx_main_v15 (ix2 r a)) = ix1 a := funext fun d => Fin.ext (by
    match d with | ⟨0, _⟩ => rfl)
  simp only [e1, e2, e3, hid2_eq, Ideal.addf_def]

end Cert.ReferenceIdeal.RefValue

end
-- ==== Proof.lean ====
/-
  A fused three-layer perceptron against its plain reference, as extended reals.

  The kernel cuts the batch of 16384 states into four blocks of 4096 rows; at the first block it copies the three weight
  matrices into scratch buffers (a change of float format, the identity on the extended reals) and at every block it
  computes  relu(relu(x·W1ᵀ + b1)·W2ᵀ + b2)·W3ᵀ + b3  from the scratch copies. The reference computes the same expression on
  the whole batch with transposed weights. Both are the same sums, additions and maxima of the same entries, so the two
  result arrays are equal entry by entry (Spec: the function; Payload: one entry of a block; Carried: what the scratch
  buffers hold from block to block; Blocks: the four blocks tile the array; RefSpec: the reference is the function).
  The idealization rewrote nothing, and each program's frame is its run with the result forgotten.
-/
import proofs.«126241_g39943195853490_cont_8to1_b_464_15_alg».proof.Defs
import proofs.«126241_g39943195853490_cont_8to1_b_464_15_alg».proof.Proof.Gen.Kernel.Frame
import proofs.«126241_g39943195853490_cont_8to1_b_464_15_alg».proof.Proof.Gen.KernelIdeal.Frame
import proofs.«126241_g39943195853490_cont_8to1_b_464_15_alg».proof.Proof.Gen.KernelIdeal.Value
import proofs.«126241_g39943195853490_cont_8to1_b_464_15_alg».proof.Proof.Gen.ReferenceIdeal.Run
import proofs.«126241_g39943195853490_cont_8to1_b_464_15_alg».proof.Proof.Gen.ReferenceIdeal.Read
import proofs.«126241_g39943195853490_cont_8to1_b_464_15_alg».proof.Proof.Gen.Pre_finite_inputs
import proofs.«126241_g39943195853490_cont_8to1_b_464_15_alg».proof.Proof.Blocks
import proofs.«126241_g39943195853490_cont_8to1_b_464_15_alg».proof.Proof.RefSpec
import Idealize.ShloMosaic.Adequacy
import Idealize.ShloMosaic.Init

noncomputable section

namespace Cert.Proof

open Idealize.ShloMosaic Idealize.SL.Sem

/-- Each program runs to the end without a fault and leaves its arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the seven arguments, the kernel's result array and the reference's are both the
    three-layer function of those arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, (hagree c).1, (hagree c).2.1,
    (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
